-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 41
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S1x64, .f32⟩
  | .hbm, ⟨40, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .i1⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run with its RESULT named.

  @main is four segments: the host operations that compute the two degree normalisations, the matmul region, the host
  gather / scatter-add over the edge list, and the finishing region. The buffer contents at the four segment
  boundaries are a fold from the launch memory (`Gen.W1` … `Gen.W4`). Every weakly fair execution ends with each
  unscoped buffer at its `Gen.W4` contents; read at the result buffer, that is what the finishing region's
  write-backs leave of its output array, and read at an argument it is the launch contents.
-/
import proofs.«126243_j37469294691137_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding the
    finishing region's output array as its write-backs leave it, and the five arguments as launched. -/
theorem run_result : θ_run defs (onTc (τ := τ) (main (F := F))) ⟨m, fun _ => 0, ρ⟩ (fun r => ∀ c : Dev nD,
      r.2.mem ((c.tc : Thread nD τ).loc main_v27) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v27 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.KRun

end
-- ==== Proof.MatmulRegion.lean ====
/-
  The matmul region as one function of the arrays it finds.

  The region walks the 100000 rows in 20 blocks of 5000. At block t it loads rows 5000·t … 5000·t+4999 of the node
  features (all 128 columns), the same rows of the one-column source normalisation, and the whole 128×64 weight; it
  scales each feature row by its normalisation, and multiplies by the weight into a zero accumulator. On the extended
  reals the change of float format is the identity and the matrix product is the plain sum over the 128 contracted
  columns, so row r, column q of the output array is
      ∑ k, (h[r,k] · n[r,0]) · W[k,q].
  The 20 output blocks tile the output array, so the array ends holding that function everywhere.
-/
import proofs.«126243_j37469294691137_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Row `p`, column `q` of the scaled product: the sum over the contracted column `k` of the feature `h[p,k]` scaled by
    the row's normalisation `n[p,0]`, times the weight `W[k,q]`. -/
def scaledDot (h : S100000x128.Idx → EReal) (n : S100000x1.Idx → EReal) (w : S128x64.Idx → EReal)
    (p : Fin 100000) (q : Fin 64) : EReal :=
  ∑ k : Fin 128, (h (ix2 p k) * n (ix2 p (0 : Fin 1))) * w (ix2 k q)

/-- The whole output array of the region, index by index. -/
def scaledProduct (h : S100000x128.Idx → EReal) (n : S100000x1.Idx → EReal) (w : S128x64.Idx → EReal) :
    S100000x64.Idx → EReal :=
  fun i => scaledDot h n w ⟨(i 0).val, idx2_lt0 i⟩ ⟨(i 1).val, idx2_lt1 i⟩

theorem scaledProduct_ix2 (h : S100000x128.Idx → EReal) (n : S100000x1.Idx → EReal) (w : S128x64.Idx → EReal)
    (p : Fin 100000) (q : Fin 64) : scaledProduct h n w (ix2 p q) = scaledDot h n w p q := rfl

/-! ## The body's product at an index -/

local notation "dotK" => dot_S5000x128_S128x64_S5000x64_1_0_0_1_n_n

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The one-column normalisation block broadcast over the 128 feature columns reads, at `(p, k)`, the block's row `p`. -/
theorem bcast_col (v : S5000x1.Idx → EReal) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else k.val; rw [if_pos rfl]

/-- The body's stored value at row `p`, column `q` of a block: the sum over `k` of the scaled feature times the weight. -/
theorem product_apply (x0 : Vec Ideal S5000x128 .f32) (x1 : Vec Ideal S5000x1 .f32) (x2 : Vec Ideal S128x64 .f32)
    (p : Fin 5000) (q : Fin 64) :
    k0_pay1 x0 x1 x2 (ix2 p q) = ∑ k : Fin 128, (x0 (ix2 p k) * x1 (ix2 p (0 : Fin 1))) * x2 (ix2 k q) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]
  show x0 (ix2 p k) * broadcastTo S5000x128 (shapeCast S5000x1 x1 shapeCasts_S5000x1_S5000x1) broadcasts_S5000x1_S5000x128 (ix2 p k) * x2 (ix2 k q) = _
  rw [bcast_col, shapeCast_self]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the feature, normalisation and output windows sit at block row `t`,
    column block 0; the weight window is always its one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the scaled product of the arrays the region finds. -/
theorem flushed_eq (c : Dev nD) (t : Fin cfg0.N) :
    (dat0 V c).flushed 3 t = ((cfg0.win 3).blk t).view.read (Elt Ideal)
      (scaledProduct (V c main_arg0) (V c main_v13) (V c main_arg1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x64) hz]
  obtain ⟨e00, e01, e10, e11, e20, e21, e30, e31⟩ := idx_facts t
  have ht : t.val < 20 := Nat.lt_of_lt_of_eq (show t.val < grid0.N from t.isLt) N_0
  funext j
  obtain ⟨p, q, rfl⟩ : ∃ (p : Fin 5000) (q : Fin 64), j = ix2 p q := ⟨j 0, j 1, eq_ix2 j⟩
  refine (product_apply (iblk0 V c 0 t) (iblk0 V c 1 t) (iblk0 V c 2 t) p q).trans ?_
  have hrow : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show _ = scaledProduct (V c main_arg0) (V c main_v13) (V c main_arg1) (((cfg0.win 3).blk t).view.emb (ix2 p q))
  rw [hrow, scaledProduct_ix2]
  unfold scaledDot
  refine Finset.sum_congr rfl fun k _ => ?_
  have h0 : iblk0 V c 0 t (ix2 p k) = V c main_arg0 (ix2 (⟨t.val * 5000 + p.val, by omega⟩ : Fin 100000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : iblk0 V c 1 t (ix2 p (0 : Fin 1)) = V c main_v13 (ix2 (⟨t.val * 5000 + p.val, by omega⟩ : Fin 100000) (0 : Fin 1)) := by
    show V c main_v13 (((cfg0.win 1).blk t).view.emb (ix2 p (0 : Fin 1))) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  have h2 : iblk0 V c 2 t (ix2 k q) = V c main_arg1 (ix2 k q) := by
    show V c main_arg1 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 64 + 1 * q.val = q.val; omega
  rw [h0, h1, h2]

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Row `r` of the output array lies in the block of point `r / 5000`. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : (i 0).val / 5000 < grid0.N := by rw [N_0]; omega
  refine ⟨⟨(i 0).val / 5000, hN⟩, flush0_3 _, ?_⟩
  obtain ⟨-, -, -, -, -, -, e30, e31⟩ := idx_facts ⟨(i 0).val / 5000, hN⟩
  rw [mem_blk]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; rw [e30]; show (i 0).val / 5000 * 5000 ≤ (i 0).val ∧ (i 0).val < (i 0).val / 5000 * 5000 + 5000; omega
  | ⟨1, _⟩ => show win0_3.index ⟨(i 0).val / 5000, hN⟩ (1 : Fin 2) * 64 ≤ (i 1).val ∧ (i 1).val < win0_3.index ⟨(i 0).val / 5000, hN⟩ (1 : Fin 2) * 64 + 64; rw [e31]; omega

/-- The region's output array after its write-backs: the scaled product of the arrays the region finds. -/
theorem final (c : Dev nD) :
    (dat0 V c).arrAt 3 cfg0.N = scaledProduct (V c main_arg0) (V c main_v13) (V c main_arg1) :=
  (dat0 V c).arrAt_eq_of_cover 3 _ (fun t _ => flushed_eq V c t) cover

end Cert.KernelIdeal.MatmulRegion

end
-- ==== Proof.FinishRegion.lean ====
/-
  The finishing region as one function of the arrays it finds.

  The region walks the 100000 rows in 20 blocks of 5000. At block t it loads rows 5000·t … 5000·t+4999 of the
  aggregated messages (all 64 columns), the same rows of the one-column destination normalisation, and the one-row
  bias; it scales each row by its normalisation, adds the bias, and applies the leaky rectifier: a value `v` is
  kept when `v ≥ 0` and replaced by `0.01f · v` otherwise (`0.01f` the single-precision literal, read as its exact
  binary value). Every operation is pointwise, so row r, column q of the output array is
      leaky (agg[r,q] · n[r,0] + b[0,q]).
  The 20 output blocks tile the output array, so the array ends holding that function everywhere.
-/
import proofs.«126243_j37469294691137_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.FinishRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- The leaky rectifier on the extended reals: `v` where `v ≥ 0`, the literal slope times `v` elsewhere. -/
def leaky (v : EReal) : EReal :=
  Scalar.select (FloatOps.cmpf (F := Ideal) (φ := .f32) .oge v (FloatOps.ofBits (F := Ideal) .f32 0x00000000#32)) v
    (FloatOps.mulf (F := Ideal) (φ := .f32) (FloatOps.ofBits (F := Ideal) .f32 0x3C23D70A#32) v)

/-- Row `p`, column `q` of the finished layer: the aggregate scaled by the row's normalisation, plus the column's
    bias, through the leaky rectifier. -/
def finishAt (agg : S100000x64.Idx → EReal) (n : S100000x1.Idx → EReal) (b : S1x64.Idx → EReal)
    (p : Fin 100000) (q : Fin 64) : EReal :=
  leaky (agg (ix2 p q) * n (ix2 p (0 : Fin 1)) + b (ix2 (0 : Fin 1) q))

/-- The whole output array of the region, index by index. -/
def finished (agg : S100000x64.Idx → EReal) (n : S100000x1.Idx → EReal) (b : S1x64.Idx → EReal) :
    S100000x64.Idx → EReal :=
  fun i => finishAt agg n b ⟨(i 0).val, idx2_lt0 i⟩ ⟨(i 1).val, idx2_lt1 i⟩

theorem finished_ix2 (agg : S100000x64.Idx → EReal) (n : S100000x1.Idx → EReal) (b : S1x64.Idx → EReal)
    (p : Fin 100000) (q : Fin 64) : finished agg n b (ix2 p q) = finishAt agg n b p q := rfl

/-! ## The body's stored value at an index -/

/-- The one-column normalisation block broadcast over the 64 columns reads, at `(p, q)`, the block's row `p`. -/
theorem bcast_col (v : S5000x1.Idx → EReal) (p : Fin 5000) (q : Fin 64) :
    broadcastTo S5000x64 v broadcasts_S5000x1_S5000x64 (ix2 p q) = v (ix2 p (0 : Fin 1)) := by
  refine broadcastTo_apply v broadcasts_S5000x1_S5000x64 (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- The body's stored value at row `p`, column `q` of a block. -/
theorem finish_apply (x0 : Vec Ideal S5000x64 .f32) (x1 : Vec Ideal S5000x1 .f32) (x2 : Vec Ideal S1x64 .f32)
    (p : Fin 5000) (q : Fin 64) :
    k1_pay1 x0 x1 x2 (ix2 p q) = leaky (x0 (ix2 p q) * x1 (ix2 p (0 : Fin 1)) + x2 (ix2 (0 : Fin 1) q)) := by
  unfold k1_pay1 leaky
  simp only [select_apply, cmpf_apply, mulf_apply, addf_apply, broadcast_apply, shapeCast_self]
  rw [bcast_col, broadcastTo_1b_ab_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the aggregate, normalisation and output windows sit at block row
    `t`, column block 0; the bias window is always its one block. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the finished layer of the arrays the region finds. -/
theorem flushed_eq (c : Dev nD) (t : Fin cfg1.N) :
    (dat1 V c).flushed 3 t = ((cfg1.win 3).blk t).view.read (Elt Ideal)
      (finished (V c main_v24) (V c main_v25) (V c main_v26)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts t
  have ht : t.val < 20 := Nat.lt_of_lt_of_eq (show t.val < grid1.N from t.isLt) N_1
  funext j
  obtain ⟨p, q, rfl⟩ : ∃ (p : Fin 5000) (q : Fin 64), j = ix2 p q := ⟨j 0, j 1, eq_ix2 j⟩
  refine (finish_apply (iblk1 V c 0 t) (iblk1 V c 1 t) (iblk1 V c 2 t) p q).trans ?_
  have hrow : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  show _ = finished (V c main_v24) (V c main_v25) (V c main_v26) (((cfg1.win 3).blk t).view.emb (ix2 p q))
  rw [hrow, finished_ix2]
  unfold finishAt
  have h0 : iblk1 V c 0 t (ix2 p q) = V c main_v24 (ix2 (⟨t.val * 5000 + p.val, by omega⟩ : Fin 100000) q) := by
    show V c main_v24 (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : iblk1 V c 1 t (ix2 p (0 : Fin 1)) = V c main_v25 (ix2 (⟨t.val * 5000 + p.val, by omega⟩ : Fin 100000) (0 : Fin 1)) := by
    show V c main_v25 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : iblk1 V c 2 t (ix2 (0 : Fin 1) q) = V c main_v26 (ix2 (0 : Fin 1) q) := by
    show V c main_v26 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  rw [h0, h1, h2]

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- Row `r` of the output array lies in the block of point `r / 5000`. -/
theorem cover (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : (i 0).val / 5000 < grid1.N := by rw [N_1]; omega
  refine ⟨⟨(i 0).val / 5000, hN⟩, flush1_3 _, ?_⟩
  obtain ⟨-, -, -, -, -, -, e30, e31⟩ := idx_facts ⟨(i 0).val / 5000, hN⟩
  rw [mem_blk]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e30]; show (i 0).val / 5000 * 5000 ≤ (i 0).val ∧ (i 0).val < (i 0).val / 5000 * 5000 + 5000; omega
  | ⟨1, _⟩ => show win1_3.index ⟨(i 0).val / 5000, hN⟩ (1 : Fin 2) * 64 ≤ (i 1).val ∧ (i 1).val < win1_3.index ⟨(i 0).val / 5000, hN⟩ (1 : Fin 2) * 64 + 64; rw [e31]; omega

/-- The region's output array after its write-backs: the finished layer of the arrays the region finds. -/
theorem final (c : Dev nD) :
    (dat1 V c).arrAt 3 cfg1.N = finished (V c main_v24) (V c main_v25) (V c main_v26) :=
  (dat1 V c).arrAt_eq_of_cover 3 _ (fun t _ => flushed_eq V c t) cover

end Cert.KernelIdeal.FinishRegion

end
-- ==== Proof.EntryReads.lean ====
/-
  The arrays the matmul region finds.

  Before the region, @main's host operations count, for every node, the edges that leave it (a scatter-add of ones at
  the source indices into zeros), clamp the count below by one, take the reciprocal square root, and reshape the
  resulting vector of 100000 normalisations to one column. None of them writes an argument. So the region finds the
  node features and the weight as launched, and the normalisation column is the reshape of
  `rsqrt (max (out-degree) 1)` — the very stage the reference computes from the source indices.
-/
import proofs.«126243_j37469294691137_1_alg».proof.Proof.Gen.KernelIdeal.Frame
import proofs.«126243_j37469294691137_1_alg».proof.Proof.Gen.ReferenceIdeal.Read
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The matmul region finds the node features as launched. -/
theorem entry_features (c : Dev nD) : V1 m ρ c main_arg0 = m ((c.tc : Thread nD τ).loc main_arg0) := by
  show StableHlo.after hostOps0 (W0 m ρ c) (Proc.devRef .tc main_arg0) = _
  after_results

/-- The matmul region finds the weight as launched. -/
theorem entry_weight (c : Dev nD) : V1 m ρ c main_arg1 = m ((c.tc : Thread nD τ).loc main_arg1) := by
  show StableHlo.after hostOps0 (W0 m ρ c) (Proc.devRef .tc main_arg1) = _
  after_results

/-- The matmul region finds, as its normalisation column, the reshape of the source-side normalisation vector. -/
theorem entry_norm (c : Dev nD) :
    V1 m ρ c main_v13 = shapeCast S100000x1
      (Cert.ReferenceIdeal.Read.val_main_v9 (F := Ideal) (m ((c.tc : Thread nD τ).loc main_arg3)))
      shapeCasts_S100000_S100000x1 := by
  show StableHlo.after hostOps0 (W0 m ρ c) (Proc.devRef .tc main_v13) = _
  after_results
  rfl

end Cert.KernelIdeal.HostReads

end
-- ==== Proof.MidReads.lean ====
/-
  What the matmul region leaves for the host operations after it.

  The region writes only its own output array: every other buffer leaves the region as it entered. So after the
  region the destination-side normalisation vector is still what the first host operations computed —
  `rsqrt (max (in-degree) 1)`, the stage the reference computes from the destination indices — and the bias and the
  two index arguments are as launched.
-/
import proofs.«126243_j37469294691137_1_alg».proof.Proof.Gen.KernelIdeal.Frame
import proofs.«126243_j37469294691137_1_alg».proof.Proof.Gen.ReferenceIdeal.Read
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- After the matmul region the destination-side normalisation vector is the reference's stage of the destination
    indices. -/
theorem mid_norm (c : Dev nD) :
    W2 m ρ c (Proc.devRef .tc main_v12)
      = Cert.ReferenceIdeal.Read.val_main_v12 (F := Ideal) (m ((c.tc : Thread nD τ).loc main_arg4)) :=
  (W2_of_ne m ρ c main_v12 (by decide)).trans (by
    show StableHlo.after hostOps0 (W0 m ρ c) (Proc.devRef .tc main_v12) = _
    after_results
    rfl)

/-- After the matmul region the bias is as launched. -/
theorem mid_bias (c : Dev nD) :
    W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)

/-- After the matmul region the source indices are as launched. -/
theorem mid_src (c : Dev nD) :
    W2 m ρ c (Proc.devRef .tc main_arg3) = m ((c.tc : Thread nD τ).loc main_arg3) :=
  (W2_of_ne m ρ c main_arg3 (by decide)).trans (by
    show StableHlo.after hostOps0 (W0 m ρ c) (Proc.devRef .tc main_arg3) = _
    after_results)

/-- After the matmul region the destination indices are as launched. -/
theorem mid_dst (c : Dev nD) :
    W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results)

end Cert.KernelIdeal.HostReads

end
-- ==== Proof.ExitReads.lean ====
/-
  The arrays the finishing region finds.

  Between the two regions @main's host operations gather, for every edge, the row of the matmul region's output at
  the edge's source (a negative source index first wrapped by the number of nodes) and add it into the row of a zero
  array at the edge's destination; they reshape the destination-side normalisation vector to one column and the bias
  to one row. So the finishing region finds: the edge aggregation of the matmul region's output; the column of
  `rsqrt (max (in-degree) 1)`; and the bias as one row.
-/
import proofs.«126243_j37469294691137_1_alg».proof.Proof.Gen.KernelIdeal.Frame
import proofs.«126243_j37469294691137_1_alg».proof.Proof.Gen.ReferenceIdeal.Read
import proofs.«126243_j37469294691137_1_alg».proof.Proof.MidReads
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.StableHlo

/-- The aggregation over the edge list of a node array `x`: row `d` of the result is the sum, over the edges whose
    destination is `d`, of the row of `x` at the edge's source (the two host operations' own conventions for indices out
    of range are part of them and are the same on both sides of the certificate). -/
def aggregate (x : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The reference aggregates its own product in the same way. -/
theorem aggregate_reference (a0 : FVec Ideal S100000x128 .f32) (a1 : FVec Ideal S128x64 .f32) (src dst : IVec S1600000 32) :
    aggregate (Cert.ReferenceIdeal.Read.val_main_v16 (F := Ideal) a0 a1 src) src dst
      = Cert.ReferenceIdeal.Read.val_main_v26 (F := Ideal) a0 a1 src dst := rfl

variable (m : (ℓ : Loc nD τ sig) → Buf (Elt Ideal) ℓ) (ρ : Dev nD → PrngReg)

/-- The finishing region finds the edge aggregation of the matmul region's output array. -/
theorem exit_aggregate (c : Dev nD) :
    V3 m ρ c main_v24 = aggregate ((dat0 (V1 m ρ) c).arrAt 3 cfg0.N)
      (m ((c.tc : Thread nD τ).loc main_arg3)) (m ((c.tc : Thread nD τ).loc main_arg4)) := by
  show StableHlo.after hostOps1 (W2 m ρ c) (Proc.devRef .tc main_v24) = _
  after_results
  rw [mid_src m ρ c, mid_dst m ρ c,
    show W2 m ρ c (Proc.devRef .tc main_v14) = (dat0 (V1 m ρ) c).arrAt 3 cfg0.N from W2_arr m ρ c 3]
  rfl

/-- The finishing region finds, as its normalisation column, the reshape of the destination-side normalisation
    vector. -/
theorem exit_norm (c : Dev nD) :
    V3 m ρ c main_v25 = shapeCast S100000x1
      (Cert.ReferenceIdeal.Read.val_main_v12 (F := Ideal) (m ((c.tc : Thread nD τ).loc main_arg4)))
      shapeCasts_S100000_S100000x1 := by
  show StableHlo.after hostOps1 (W2 m ρ c) (Proc.devRef .tc main_v25) = _
  after_results
  rw [mid_norm m ρ c]
  rfl

/-- The finishing region finds the bias as one row. -/
theorem exit_bias (c : Dev nD) :
    V3 m ρ c main_v26 = shapeCast S1x64 (m ((c.tc : Thread nD τ).loc main_arg2)) shapeCasts_S64_S1x64 := by
  show StableHlo.after hostOps1 (W2 m ρ c) (Proc.devRef .tc main_v26) = _
  after_results
  rw [mid_bias m ρ c]
  rfl

end Cert.KernelIdeal.HostReads

end
-- ==== Proof.LayerValue.lean ====
/-
  The idealized kernel's result is the idealized reference's.

  Both programs compute one graph-convolution layer. With `n_src = rsqrt (max out-degree 1)` and
  `n_dst = rsqrt (max in-degree 1)` (the degrees counted by scatter-adds of ones over the edge list),
      x[r,q]   = ∑ k, (h[r,k] · n_src[r]) · W[k,q]
      agg      = the sum, into each destination row, of the rows of x at the edges' sources
      out[r,q] = leaky (agg[r,q] · n_dst[r] + b[q]).
  The kernel computes x and out block by block in two regions and leaves the degree counts, the gather and the
  scatter-add to host operations; the reference computes every stage by a host operation on the whole arrays. On the
  extended reals the two agree stage by stage: the degree stages and the edge aggregation are literally the same
  operations; x is the same sum over the 128 contracted columns (the kernel's change of format into the product is
  the identity, and its product into a zero accumulator is the plain sum); out is the same pointwise expression. No
  law of arithmetic is used beyond reading both sides at an index, so the finiteness of the inputs is never opened.
-/
import proofs.«126243_j37469294691137_1_alg».proof.Proof.MatmulRegion
import proofs.«126243_j37469294691137_1_alg».proof.Proof.FinishRegion
import proofs.«126243_j37469294691137_1_alg».proof.Proof.EntryReads
import proofs.«126243_j37469294691137_1_alg».proof.Proof.ExitReads
import proofs.«126243_j37469294691137_1_alg».proof.Proof.Gen.ReferenceIdeal.Read
import Idealize.ShloMosaic.Lib.ValueLayout

set_option maxRecDepth 16384

noncomputable section

open scoped BigOperators

namespace Cert.KernelIdeal.LayerValue

open Cert.KernelIdeal Cert.KernelIdeal.Gen Idealize.ShloMosaic Idealize.ShloMosaic.TcCoe Idealize.SL.Sem
open Idealize.ShloMosaic.ValueIdx

/-- A vector of `a` entries reshaped to one column reads, at row `p`, the vector's entry `p`. -/
theorem column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The matmul region's function of the launched features, the source-side normalisation column and the launched
    weight is the reference's product stage: at row `p`, column `q` both are the sum over `k` of
    `(h[p,k] · n_src[p]) · W[k,q]`. -/
theorem product_eq (a0 : FVec Ideal S100000x128 .f32) (a1 : FVec Ideal S128x64 .f32) (a3 : IVec S1600000 32) :
    MatmulRegion.scaledProduct a0
        (shapeCast S100000x1 (Cert.ReferenceIdeal.Read.val_main_v9 (F := Ideal) a3) shapeCasts_S100000_S100000x1) a1
      = Cert.ReferenceIdeal.Read.val_main_v16 (F := Ideal) a0 a1 a3 := by
  funext i
  obtain ⟨p, q, rfl⟩ : ∃ (p : Fin 100000) (q : Fin 64), i = ix2 p q := ⟨i 0, i 1, eq_ix2 i⟩
  rw [MatmulRegion.scaledProduct_ix2, Cert.ReferenceIdeal.Read.val_main_v16_apply]
  unfold MatmulRegion.scaledDot
  refine Finset.sum_congr rfl fun k _ => ?_
  have el : Cert.ReferenceIdeal.Read.lidx_main_v16 (ix2 p q) k = ix2 p k :=
    funext fun a => Fin.ext (by match a with | ⟨0, _⟩ => rfl | ⟨1, _⟩ => rfl)
  have er : Cert.ReferenceIdeal.Read.ridx_main_v16 (ix2 p q) k = ix2 k q :=
    funext fun a => Fin.ext (by match a with | ⟨0, _⟩ => rfl | ⟨1, _⟩ => rfl)
  have ei : Cert.ReferenceIdeal.Read.idx_main_v13 (Cert.ReferenceIdeal.Read.idx_main_v14 (ix2 p k)) = ix1 p :=
    funext fun a => Fin.ext (by match a with | ⟨0, _⟩ => rfl)
  rw [el, er, Cert.ReferenceIdeal.Read.val_main_v15_apply, Cert.ReferenceIdeal.Read.val_main_v14_apply,
    Cert.ReferenceIdeal.Read.val_main_v13_apply, ei, column_apply]
  rfl

variable (m : (ℓ : Loc nD τ sig) → Buf (Elt Ideal) ℓ) (ρ : Dev nD → PrngReg)

/-- The finishing region's output array, after its write-backs, is the reference's last stage of the launched
    arguments. -/
theorem result_eq (c : Dev nD) :
    (dat1 (V3 m ρ) c).arrAt 3 cfg1.N
      = Cert.ReferenceIdeal.Read.val_main_v37 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  rw [FinishRegion.final (V3 m ρ) c, HostReads.exit_aggregate m ρ c, HostReads.exit_norm m ρ c,
    HostReads.exit_bias m ρ c, MatmulRegion.final (V1 m ρ) c, HostReads.entry_features m ρ c,
    HostReads.entry_norm m ρ c, HostReads.entry_weight m ρ c, product_eq, HostReads.aggregate_reference]
  funext i
  obtain ⟨p, q, rfl⟩ : ∃ (p : Fin 100000) (q : Fin 64), i = ix2 p q := ⟨i 0, i 1, eq_ix2 i⟩
  rw [FinishRegion.finished_ix2]
  unfold FinishRegion.finishAt
  rw [column_apply, shapeCast_a_1a_apply]
  have e1 : Cert.ReferenceIdeal.Read.idx_main_v27 (Cert.ReferenceIdeal.Read.idx_main_v28 (ix2 p q)) = ix1 p :=
    funext fun a => Fin.ext (by match a with | ⟨0, _⟩ => rfl)
  have e2 : Cert.ReferenceIdeal.Read.idx_main_v30 (Cert.ReferenceIdeal.Read.idx_main_v31 (ix2 p q)) = ix1 q :=
    funext fun a => Fin.ext (by match a with | ⟨0, _⟩ => rfl)
  rw [Cert.ReferenceIdeal.Read.val_main_v37_apply, Cert.ReferenceIdeal.Read.val_main_v34_apply,
    Cert.ReferenceIdeal.Read.val_main_v36_apply, Cert.ReferenceIdeal.Read.val_main_v35_apply,
    Cert.ReferenceIdeal.Read.val_main_cst_7_apply, Cert.ReferenceIdeal.Read.val_main_v33_apply,
    Cert.ReferenceIdeal.Read.val_main_cst_6_apply, Cert.ReferenceIdeal.Read.val_main_v32_apply,
    Cert.ReferenceIdeal.Read.val_main_v29_apply, Cert.ReferenceIdeal.Read.val_main_v28_apply,
    Cert.ReferenceIdeal.Read.val_main_v27_apply, Cert.ReferenceIdeal.Read.val_main_v31_apply,
    Cert.ReferenceIdeal.Read.val_main_v30_apply, e1, e2]
  rfl

end Cert.KernelIdeal.LayerValue

end
-- ==== Proof.lean ====
/-
  One graph-convolution layer, computed two ways, gives one result on the extended reals.

  The kernel program counts each node's out- and in-degree over the edge list on the host, multiplies the node
  features (each row scaled by `rsqrt (max out-degree 1)`) by the weight in a first region of 20 row blocks, gathers
  and scatter-adds the product's rows along the edges on the host, and in a second region of 20 row blocks scales
  each aggregated row by `rsqrt (max in-degree 1)`, adds the bias and applies the leaky rectifier. The reference
  computes the same stages by whole-array host operations.

  The claims: each of the three programs runs to the end, without a fault, leaving its arguments unchanged (the two
  kernel programs by their frame certificates; the reference by its run read back); the idealized kernel is the
  kernel's own text read on the extended reals (no rewrite was applied, so nothing is left to preserve); and from
  memories that agree on the five arguments, the idealized kernel and the idealized reference end with equal results,
  element by element: both results are the reference's last stage of the arguments (Proof/LayerValue.lean for the
  kernel's side, the reference's run and its stage-by-stage reading for the reference's side).
-/
import proofs.«126243_j37469294691137_1_alg».proof.Defs
import proofs.«126243_j37469294691137_1_alg».proof.Proof.Gen.Kernel
import proofs.«126243_j37469294691137_1_alg».proof.Proof.Gen.Kernel.Frame
import proofs.«126243_j37469294691137_1_alg».proof.Proof.Gen.KernelIdeal
import proofs.«126243_j37469294691137_1_alg».proof.Proof.Gen.KernelIdeal.Frame
import proofs.«126243_j37469294691137_1_alg».proof.Proof.Gen.ReferenceIdeal
import proofs.«126243_j37469294691137_1_alg».proof.Proof.Gen.Pre_finite_inputs
import proofs.«126243_j37469294691137_1_alg».proof.Proof.Gen.ReferenceIdeal.Run
import proofs.«126243_j37469294691137_1_alg».proof.Proof.Gen.ReferenceIdeal.Read
import proofs.«126243_j37469294691137_1_alg».proof.Proof.KRun
import proofs.«126243_j37469294691137_1_alg».proof.Proof.LayerValue
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Gen.frame m ρ

/-- The idealized kernel runs to the end and leaves its arguments unchanged. -/
theorem frame_ideal : Cert.frame_KernelIdeal := fun m ρ _ => Cert.KernelIdeal.Gen.frame m ρ

/-- The idealized reference runs to the end and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs end with the reference's last stage of the
    arguments in their result buffers. -/
theorem algebraic : Cert.algebraic_KernelIdeal_ReferenceIdeal := by
  intro m ρ m' ρ' _ hagree
  refine ⟨fun c => Cert.ReferenceIdeal.Read.val_main_v37 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.LayerValue.result_eq m ρ c), (h c).2⟩)
      (Cert.KernelIdeal.KRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
